-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000x5 : Shape := ⟨2, ![20000000, 5]⟩
abbrev S20000000x1 : Shape := ⟨2, ![20000000, 1]⟩
abbrev S_ : Shape := ⟨0, ![]⟩

class Facts : Prop where
  bcast_S_S20000000x5 : S_.BroadcastsInDim S20000000x5 (![] : Fin 0 → Fin S20000000x5.rank)
  reducesTo_S20000000x5_S_d0_1 : S20000000x5.ReducesTo [0, 1] S_
  h_S_ : 0 < S_.numel
  bcast_S_S20000000x1 : S_.BroadcastsInDim S20000000x1 (![] : Fin 0 → Fin S20000000x1.rank)
  reducesTo_S20000000x1_S_d0_1 : S20000000x1.ReducesTo [0, 1] S_

variable [Facts]

def fn {F : FTy → Type} [FloatOps F] (main_arg0 : FVec F S20000000x5 .f32) (main_arg1 : FVec F S20000000x1 .f32) : IVec S_ 1 :=
  let main_v0 : FVec F S20000000x5 .f32 := Host.absf main_arg0
  let main_cst : FVec F S_ .f32 := constant S_ .f32 0x7F800000#32
  let main_v1 : FVec F S20000000x5 .f32 := broadcastInDim S20000000x5 ![] bcast_S_S20000000x5 main_cst
  let main_v2 : IVec S20000000x5 1 := cmpf .olt main_v0 main_v1
  let main_c : IVec S_ 1 := constantI S_ 1 1#1
  let main_v3 : IVec S_ 1 := (fun x v => Host.reduce IntOp.andi x v reducesTo_S20000000x5_S_d0_1 h_S_) main_v2 main_c
  let main_v4 : FVec F S20000000x1 .f32 := Host.absf main_arg1
  let main_cst_0 : FVec F S_ .f32 := constant S_ .f32 0x7F800000#32
  let main_v5 : FVec F S20000000x1 .f32 := broadcastInDim S20000000x1 ![] bcast_S_S20000000x1 main_cst_0
  let main_v6 : IVec S20000000x1 1 := cmpf .olt main_v4 main_v5
  let main_c_1 : IVec S_ 1 := constantI S_ 1 1#1
  let main_v7 : IVec S_ 1 := (fun x v => Host.reduce IntOp.andi x v reducesTo_S20000000x1_S_d0_1 h_S_) main_v6 main_c_1
  let main_v8 : IVec S_ 1 := andi main_v3 main_v7
  main_v8
-- ==== Kernel.lean ====
abbrev S20000000x5 : Shape := ⟨2, ![20000000, 5]⟩
abbrev S20000000x1 : Shape := ⟨2, ![20000000, 1]⟩
abbrev S1x1 : Shape := ⟨2, ![1, 1]⟩
abbrev S16000x5 : Shape := ⟨2, ![16000, 5]⟩
abbrev S16000x1 : Shape := ⟨2, ![16000, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S20000000x5, .f32⟩
  | .hbm, ⟨1, _⟩ => ⟨S20000000x1, .f32⟩
  | .hbm, ⟨2, _⟩ => ⟨S1x1, .f32⟩
  | .hbm, ⟨3, _⟩ => ⟨S_, .f32⟩
  | .local _ .vmem, ⟨0, _⟩ => ⟨S16000x5, .f32⟩
  | .local _ .vmem, ⟨1, _⟩ => ⟨S16000x5, .f32⟩
  | .local _ .vmem, ⟨2, _⟩ => ⟨S16000x1, .f32⟩
  | .local _ .vmem, ⟨3, _⟩ => ⟨S16000x1, .f32⟩
  | .local _ .vmem, ⟨4, _⟩ => ⟨S1x1, .f32⟩
  | .local _ .vmem, ⟨5, _⟩ => ⟨S1x1, .f32⟩
  | _, _ => ⟨S20000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1250], ![false]⟩

def k0_cond2 (i : grid0.Coords) : BitVec 1 :=
  let arg0 : BitVec 32 := BitVec.ofNat 32 (i 0).val
  let c1249_i32 : BitVec 32 := 1249#32
  let v23 : BitVec 1 := Scalar.cmpi .eq arg0 c1249_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16000x5_S16000x5_0_0 : ∀ a, (![0, 0] : Fin 2 → Nat) a + S16000x5.size a ≤ S16000x5.size a
  h_S16000x5 : 0 < S16000x5.numel
  inb_S16000x1_S16000x1_0_0 : ∀ a, (![0, 0] : Fin 2 → Nat) a + S16000x1.size a ≤ S16000x1.size a
  h_S16000x1 : 0 < S16000x1.numel
  slices_S16000x5_o0_0_S16000x1 : S16000x5.Slices ![0, 0] S16000x1
  slices_S16000x5_o0_2_S16000x1 : S16000x5.Slices ![0, 2] S16000x1
  slices_S16000x5_o0_4_S16000x1 : S16000x5.Slices ![0, 4] S16000x1
  reduces_S16000x1_S1 : S16000x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x5.size a ≤ S20000000x5.size a
  hwx0_0 : ∀ i : grid0.Coords, EltTy.bits .f32 = 32 ∨ (Rect.block (s := S20000000x5) S16000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x1.size a ≤ S20000000x1.size a
  hwx0_1 : ∀ i : grid0.Coords, EltTy.bits .f32 = 32 ∨ (Rect.block (s := S20000000x1) S16000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S20000000x5 : Shape := ⟨2, ![20000000, 5]⟩
abbrev S20000000x1 : Shape := ⟨2, ![20000000, 1]⟩
abbrev S20000000 : Shape := ⟨1, ![20000000]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S20000000x5, .f32⟩
  | .hbm, ⟨1, _⟩ => ⟨S20000000x1, .f32⟩
  | .hbm, ⟨2, _⟩ => ⟨S20000000x1, .f32⟩
  | .hbm, ⟨3, _⟩ => ⟨S20000000, .f32⟩
  | .hbm, ⟨4, _⟩ => ⟨S20000000x1, .f32⟩
  | .hbm, ⟨5, _⟩ => ⟨S20000000, .f32⟩
  | .hbm, ⟨6, _⟩ => ⟨S20000000, .f32⟩
  | .hbm, ⟨7, _⟩ => ⟨S20000000, .f32⟩
  | .hbm, ⟨8, _⟩ => ⟨S_, .f32⟩
  | .hbm, ⟨9, _⟩ => ⟨S20000000, .f32⟩
  | .hbm, ⟨10, _⟩ => ⟨S20000000, .i1⟩
  | .hbm, ⟨11, _⟩ => ⟨S20000000x1, .f32⟩
  | .hbm, ⟨12, _⟩ => ⟨S20000000, .f32⟩
  | .hbm, ⟨13, _⟩ => ⟨S20000000x1, .f32⟩
  | .hbm, ⟨14, _⟩ => ⟨S20000000, .f32⟩
  | .hbm, ⟨15, _⟩ => ⟨S20000000, .f32⟩
  | .hbm, ⟨16, _⟩ => ⟨S20000000x1, .f32⟩
  | .hbm, ⟨17, _⟩ => ⟨S20000000, .f32⟩
  | .hbm, ⟨18, _⟩ => ⟨S20000000, .f32⟩
  | .hbm, ⟨19, _⟩ => ⟨S20000000, .f32⟩
  | .hbm, ⟨20, _⟩ => ⟨S20000000, .f32⟩
  | .hbm, ⟨21, _⟩ => ⟨S20000000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S20000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩

abbrev nD : Nat := 1
abbrev τ : Topo := Topo.v7x

variable {F : FTy → Type} [FloatOps F]

class Facts₀ : Prop where
  slices_S20000000x5_S20000000x1_0_4 : S20000000x5.Slices ![0, 4] S20000000x1
  shapeCasts_S20000000x1_S20000000 : S20000000x1.ShapeCasts S20000000
  slices_S20000000x5_S20000000x1_0_2 : S20000000x5.Slices ![0, 2] S20000000x1
  bcast_S_S20000000 : S_.BroadcastsInDim S20000000 (![] : Fin 0 → Fin S20000000.rank)
  slices_S20000000x5_S20000000x1_0_0 : S20000000x5.Slices ![0, 0] S20000000x1
  reducesTo_S20000000_S_d0 : S20000000.ReducesTo [0] S_
  h_S_ : 0 < S_.numel

variable [Facts₀]

class Facts : Prop extends Facts₀ where

variable [Facts]
-- ==== Proof.Pieces.lean ====
/-
  What one run of the kernel body leaves behind, case by case, as a pure function of what its loads read.
  The body keeps a one-entry accumulator between grid points. At the first point it stores zero there and then adds
  the block's partial sum; at every later point it adds the block's partial sum to what the point before left; at the
  last point it also stores the accumulator divided by the number of rows into the output block. Each store covers its
  whole one-entry buffer, so what a buffer ends holding is the last store's value, and a load of a buffer just stored
  reads that value back.
-/
import proofs.«179206_j28827820491183_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- A middle grid point: the body leaves in the carried accumulator, which held `xs0`, the accumulator plus the
    block's partial sum — its one covering store's value, whose loads read the whole buffers. -/
theorem scratch_B (c : Dev nD) (i : grid0.Coords) (arg1 : Memref sig .tc .vmem S16000x5 .f32) (harg1 : arg1.IsWhole) (arg2 : Memref sig .tc .vmem S16000x1 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S16000x5 .f32) (x1 : Vec F S16000x1 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  rw [View.canon_unit_zero hz]
  simp only [View.readAt_eq_ld, harg1.read_unread, harg2.read_unread, harg4.read_unread,
    View.ld_unit_zero (S := S16000x5) hz, View.ld_unit_zero (S := S16000x1) hz, View.ld_unit_zero (S := S1x1) hz]

/-- The first grid point: the body first stores the zero block into the accumulator, reads it back, and leaves
    zero plus the block's partial sum. -/
theorem scratch_A (c : Dev nD) (i : grid0.Coords) (arg1 : Memref sig .tc .vmem S16000x5 .f32) (harg1 : arg1.IsWhole) (arg2 : Memref sig .tc .vmem S16000x1 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S16000x5 .f32) (x1 : Vec F S16000x1 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread,
    View.ld_unit_zero (S := S16000x5) hz, View.ld_unit_zero (S := S16000x1) hz]

/-- The last grid point: the accumulator as at a middle point, -/
theorem scratch_C (c : Dev nD) (i : grid0.Coords) (arg1 : Memref sig .tc .vmem S16000x5 .f32) (harg1 : arg1.IsWhole) (arg2 : Memref sig .tc .vmem S16000x1 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S16000x5 .f32) (x1 : Vec F S16000x1 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero (S := S1x1) hz]
  simp only [View.readAt_eq_ld, harg1.read_unread, harg2.read_unread, harg4.read_unread,
    View.ld_unit_zero (S := S16000x5) hz, View.ld_unit_zero (S := S16000x1) hz, View.ld_unit_zero (S := S1x1) hz]

/-- and the output block: the accumulator just stored, read back and divided by the number of rows. -/
theorem out_C (c : Dev nD) (i : grid0.Coords) (arg1 : Memref sig .tc .vmem S16000x5 .f32) (harg1 : arg1.IsWhole) (arg2 : Memref sig .tc .vmem S16000x1 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S16000x5 .f32) (x1 : Vec F S16000x1 .f32) (xs0 : Vec F S1x1 .f32) :
    out0_C_2 c i arg1 harg1 arg2 harg2 arg3 harg3 arg4 harg4 hc0 hc1 x0 x1 xs0 = k0_pay3 (k0_pay2 x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero (S := S1x1) hz, View.readCov_unit_zero (S := S1x1) _ hz]
  simp only [View.readAt_eq_ld, harg1.read_unread, harg2.read_unread, harg4.read_unread,
    View.ld_unit_zero (S := S16000x5) hz, View.ld_unit_zero (S := S16000x1) hz, View.ld_unit_zero (S := S1x1) hz]

end Cert.KernelIdeal.Pieces

end
-- ==== Proof.RowLoss.lean ====
/-
  The loss of one row and the mean of the losses of all rows, as functions of the two argument arrays on the
  extended reals, with the one law the two programs differ by: a sum over all 20,000,000 rows is the sum, block
  after block, of the sums over 1,250 consecutive blocks of 16,000 rows. Addition of extended reals is
  commutative and associative everywhere (the infinities included), so no entry needs to be finite.
-/
import Idealize.ShloMosaic.PureOps.Ideal
import Idealize.ShloMosaic.PureOps.Ideal.Laws
import Idealize.ShloMosaic.Lib.ValueIdx

noncomputable section

open scoped BigOperators

namespace Cert.RowLoss

open Idealize.ShloMosaic Idealize.ShloMosaic.ValueIdx

/-- The loss of one row from its entries in columns 0, 2 and 4 and its target: the distance from column 0 to
    column 4 where columns 4 and 2 are closer than the tolerance (the f32 nearest to 0.1), else the distance from
    column 0 to the target. -/
def rowAbs (a0 a2 a4 tt : Ideal .f32) : Ideal .f32 :=
  FloatOps.absf (Scalar.select
    (FloatOps.cmpf .olt (FloatOps.absf (FloatOps.subf a4 a2)) (FloatOps.ofBits .f32 0x3DCCCCCD#32))
    (FloatOps.subf a0 a4) (FloatOps.subf a0 tt))

/-- The inputs: 20,000,000 rows of five entries, -/
abbrev Rows : Type := (⟨2, ![20000000, 5]⟩ : Shape).Idx → Ideal .f32
/-- and one target per row. -/
abbrev Targets : Type := (⟨2, ![20000000, 1]⟩ : Shape).Idx → Ideal .f32

/-- The loss of row `i`; zero past the last row, so that the function is total on the naturals. -/
def lossAt (x : Rows) (t : Targets) (i : ℕ) : EReal :=
  if h : i < 20000000 then
    rowAbs (x (ix2 ⟨i, h⟩ (0 : Fin 5))) (x (ix2 ⟨i, h⟩ (2 : Fin 5))) (x (ix2 ⟨i, h⟩ (4 : Fin 5)))
      (t (ix2 ⟨i, h⟩ (0 : Fin 1)))
  else 0

/-- The sum of the losses of the first `n` rows. -/
def lossUpTo (x : Rows) (t : Targets) (n : ℕ) : EReal := ∑ i ∈ Finset.range n, lossAt x t i

/-- The mean loss: the sum over every row, divided by the number of rows (as the f32 20000000.0, which is exact). -/
def meanLoss (x : Rows) (t : Targets) : EReal :=
  Ideal.div (lossUpTo x t 20000000) (Ideal.ofBits .f32 0x4B989680#32)

/-- The sum of the losses of a block of 16,000 rows given with its targets. -/
def blockLoss (b : (⟨2, ![16000, 5]⟩ : Shape).Idx → Ideal .f32) (u : (⟨2, ![16000, 1]⟩ : Shape).Idx → Ideal .f32) : EReal :=
  ∑ r : Fin 16000, rowAbs (b (ix2 r (0 : Fin 5))) (b (ix2 r (2 : Fin 5))) (b (ix2 r (4 : Fin 5))) (u (ix2 r (0 : Fin 1)))

/-- Row `r` of block `n` is row `16000 n + r` of the array. -/
theorem row_lt {n : ℕ} (hn : n < 1250) (r : Fin 16000) : 16000 * n + r.val < 20000000 := by
  have := r.isLt; omega

/-- A block that holds rows `16000 n` to `16000 n + 15999` of the arrays sums the losses of those rows. -/
theorem blockLoss_eq (x : Rows) (t : Targets) {n : ℕ} (hn : n < 1250)
    (b : (⟨2, ![16000, 5]⟩ : Shape).Idx → Ideal .f32) (u : (⟨2, ![16000, 1]⟩ : Shape).Idx → Ideal .f32)
    (hb : ∀ (r : Fin 16000) (k : Fin 5), b (ix2 r k) = x (ix2 ⟨16000 * n + r.val, row_lt hn r⟩ k))
    (hu : ∀ (r : Fin 16000) (k : Fin 1), u (ix2 r k) = t (ix2 ⟨16000 * n + r.val, row_lt hn r⟩ k)) :
    blockLoss b u = ∑ r ∈ Finset.range 16000, lossAt x t (16000 * n + r) := by
  rw [Finset.sum_range]
  unfold blockLoss
  refine Finset.sum_congr rfl fun r _ => ?_
  unfold lossAt
  rw [dif_pos (row_lt hn r), hb, hb, hb, hu]

/-- The sum over the first `n + 1` blocks is the sum over the first `n` plus block `n`'s. -/
theorem lossUpTo_succ_block (x : Rows) (t : Targets) (n : ℕ) :
    lossUpTo x t (16000 * (n + 1)) = lossUpTo x t (16000 * n) + ∑ r ∈ Finset.range 16000, lossAt x t (16000 * n + r) := by
  unfold lossUpTo
  rw [show 16000 * (n + 1) = 16000 * n + 16000 from by ring, Finset.sum_range_add]

/-- Nothing is summed before the first block. -/
theorem lossUpTo_zero (x : Rows) (t : Targets) : lossUpTo x t (16000 * 0) = 0 := by
  unfold lossUpTo; simp

end Cert.RowLoss

end
-- ==== Proof.Payloads.lean ====
/-
  The body's three stored values read at their one entry, on the extended reals: the reset value is zero; the
  accumulating store is the accumulator plus the sum over the block's 16,000 rows of each row's loss; the output
  store is the accumulator divided by the number of rows.
-/
import proofs.«179206_j28827820491183_2_alg».proof.Proof.Gen.KernelIdeal.Skeleton
import proofs.«179206_j28827820491183_2_alg».proof.Proof.RowLoss
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.Payloads

open Cert.KernelIdeal Cert.KernelIdeal.Gen Cert.RowLoss

/-- The lane sum of a column of 16,000 entries into one entry is the sum over the rows: the reduction starts from
    the neutral element, so nothing else is added. -/
theorem colSum (src : FVec Ideal S16000x1 .f32) (h : S16000x1.Reduces [0] S1) (hφ : FKind.Formats .f32)
    (hacc : (0x00000000#32 : BitVec 32) = FKind.add.neutral .f32 hφ) (q : Fin 1) :
    multiReduction .add [0] S1 src 0x00000000#32 h hφ hacc (ix1 q) = ∑ r : Fin 16000, src (ix2 r q) :=
  (Ideal.multiReduction_add_single src 0x00000000#32 h hφ hacc (ix1 q)).trans
    (Finset.sum_congr rfl fun r _ => congrArg src (funext fun a => by
      match a with
      | ⟨0, _⟩ => rfl
      | ⟨1, _⟩ => rfl))

/-- Column `o` of a block, as a one-column block, reads at row `r` the block's entry `(r, o)`. -/
theorem column_at (x0 : FVec Ideal S16000x5 .f32) (o : Nat) (h : S16000x5.Slices ![0, o] S16000x1) (r : Fin 16000)
    (q : Fin 1) (k : Fin 5) (hk : k.val = o) :
    extractStridedSlice S16000x1 ![0, o] x0 h (ix2 r q) = x0 (ix2 r k) :=
  slice2_axis1_apply o x0 h r q k (by have := q.isLt; omega)

/-- The reset value is zero. -/
theorem reset_apply (y : S1x1.Idx) : k0_pay1 (F := Ideal) y = 0 := by
  unfold k0_pay1
  refine (congrFun (shapeCast_self _ _) y).trans ?_
  exact Ideal.ofBits_zero_f32

/-- The accumulating store: the accumulator plus the sum of the losses of the block's rows. -/
theorem accumulate_apply (x0 : FVec Ideal S16000x5 .f32) (x1 : FVec Ideal S16000x1 .f32) (xs : FVec Ideal S1x1 .f32)
    (y : S1x1.Idx) : k0_pay2 (F := Ideal) x0 x1 xs y = xs y + blockLoss x0 x1 := by
  obtain ⟨p, q, rfl⟩ : ∃ (p : Fin 1) (q : Fin 1), y = ix2 p q := ⟨y 0, y 1, eq_ix2 y⟩
  unfold k0_pay2
  refine (congrFun (shapeCast_self _ _) _).trans ?_
  refine congrArg (xs (ix2 p q) + ·) ?_
  refine (shapeCast_a_1a_apply _ _ p q).trans ?_
  refine (colSum _ _ _ _ q).trans ?_
  unfold blockLoss
  refine Finset.sum_congr rfl fun r _ => ?_
  have hq : q = (0 : Fin 1) := Subsingleton.elim _ _
  subst hq
  show FloatOps.absf (Scalar.select (FloatOps.cmpf .olt (FloatOps.absf (FloatOps.subf
      (extractStridedSlice S16000x1 ![0, 4] x0 slices_S16000x5_o0_4_S16000x1 (ix2 r 0))
      (extractStridedSlice S16000x1 ![0, 2] x0 slices_S16000x5_o0_2_S16000x1 (ix2 r 0))))
        (FloatOps.ofBits .f32 0x3DCCCCCD#32))
      (FloatOps.subf (extractStridedSlice S16000x1 ![0, 0] x0 slices_S16000x5_o0_0_S16000x1 (ix2 r 0))
        (extractStridedSlice S16000x1 ![0, 4] x0 slices_S16000x5_o0_4_S16000x1 (ix2 r 0)))
      (FloatOps.subf (extractStridedSlice S16000x1 ![0, 0] x0 slices_S16000x5_o0_0_S16000x1 (ix2 r 0))
        (x1 (ix2 r 0)))) = _
  rw [column_at x0 4 _ r 0 4 rfl, column_at x0 2 _ r 0 2 rfl, column_at x0 0 _ r 0 0 rfl]
  rfl

/-- The output store: the accumulator divided by the number of rows. -/
theorem divide_apply (v : FVec Ideal S1x1 .f32) (y : S1x1.Idx) :
    k0_pay3 (F := Ideal) v y = Ideal.div (v y) (Ideal.ofBits .f32 0x4B989680#32) := rfl

end Cert.KernelIdeal.Payloads

end
-- ==== Proof.Blocks.lean ====
/-
  The blocks the kernel reads. At grid point `t` the first window holds rows `16000 t` to `16000 t + 15999` of the
  rows array, all five columns, and the second window the same rows of the targets: entry `(r, k)` of a block is
  entry `(16000 t + r, k)` of its array. So the sum of the losses over a point's two blocks is the sum of the losses of
  those rows of the arguments.
-/
import proofs.«179206_j28827820491183_2_alg».proof.Proof.Gen.KernelIdeal.Frame
import proofs.«179206_j28827820491183_2_alg».proof.Proof.RowLoss
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.RowLoss

variable (m : (ℓ : Loc nD τ sig) → Buf (Elt Ideal) ℓ)

/-- The rows argument and the targets argument on core `c`. -/
abbrev rows (c : Dev nD) : Rows := m ((c : Thread nD τ).loc main_arg0)
abbrev targets (c : Dev nD) : Targets := m ((c : Thread nD τ).loc main_arg1)

/-- The grid has 1,250 points. -/
theorem point_lt (t : Fin cfg0.N) : t.val < 1250 := lt_of_lt_of_eq t.isLt (show cfg0.N = 1250 from N_0)

/-- Both input windows move along the rows with the grid point and stay at column 0. -/
theorem rows_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem targets_index : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(r, k)` of the rows block at point `t` is entry `(16000 t + r, k)` of the rows. -/
theorem rows_block_at (c : Dev nD) (t : Fin cfg0.N) (r : Fin 16000) (k : Fin 5) :
    (iblk m c 0 t : Vec Ideal S16000x5 .f32) (ix2 r k)
      = rows m c (ix2 ⟨16000 * t.val + r.val, row_lt (point_lt t) r⟩ k) := by
  unfold iblk
  rw [View.read_apply]
  show V m c main_arg0 _ = m ((c : Thread nD τ).loc main_arg0) _
  unfold V
  congr 1
  funext a
  apply Fin.ext
  match a with
  | ⟨0, _⟩ => show win0_0.index t 0 * 16000 + 1 * r.val = 16000 * t.val + r.val; rw [(rows_index t).1]; omega
  | ⟨1, _⟩ => show win0_0.index t 1 * 5 + 1 * k.val = k.val; rw [(rows_index t).2]; omega

/-- Entry `(r, k)` of the targets block at point `t` is entry `(16000 t + r, k)` of the targets. -/
theorem targets_block_at (c : Dev nD) (t : Fin cfg0.N) (r : Fin 16000) (k : Fin 1) :
    (iblk m c 1 t : Vec Ideal S16000x1 .f32) (ix2 r k)
      = targets m c (ix2 ⟨16000 * t.val + r.val, row_lt (point_lt t) r⟩ k) := by
  unfold iblk
  rw [View.read_apply]
  show V m c main_arg1 _ = m ((c : Thread nD τ).loc main_arg1) _
  unfold V
  congr 1
  funext a
  apply Fin.ext
  match a with
  | ⟨0, _⟩ => show win0_1.index t 0 * 16000 + 1 * r.val = 16000 * t.val + r.val; rw [(targets_index t).1]; omega
  | ⟨1, _⟩ => show win0_1.index t 1 * 1 + 1 * k.val = k.val; rw [(targets_index t).2]; omega

/-- The sum of the losses over the two blocks of point `t` is the sum of the losses of rows `16000 t` to
    `16000 t + 15999`. -/
theorem block_loss (c : Dev nD) (t : Fin cfg0.N) :
    blockLoss (iblk m c 0 t : Vec Ideal S16000x5 .f32) (iblk m c 1 t : Vec Ideal S16000x1 .f32)
      = ∑ r ∈ Finset.range 16000, lossAt (rows m c) (targets m c) (16000 * t.val + r) :=
  blockLoss_eq (rows m c) (targets m c) (point_lt t) _ _ (rows_block_at m c t) (targets_block_at m c t)

end Cert.KernelIdeal.Blocks

end
-- ==== Proof.Accumulate.lean ====
/-
  The accumulator across the grid. After the first point it holds zero plus the first block's partial sum; after
  every later point what the point before left plus that point's partial sum. By induction on the point it holds,
  after point `n`, the sum of the losses of the first `16000 (n + 1)` rows; the last point also leaves in the output
  block that sum — over all 20,000,000 rows — divided by the number of rows: the mean loss.
-/
import proofs.«179206_j28827820491183_2_alg».proof.Proof.Pieces
import proofs.«179206_j28827820491183_2_alg».proof.Proof.Payloads
import proofs.«179206_j28827820491183_2_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.RowLoss Cert.KernelIdeal.Blocks

variable (m : (ℓ : Loc nD τ sig) → Buf (Elt Ideal) ℓ)

/-- The partial sum of point `t`: the sum of the losses over its two blocks. -/
def pointLoss (c : Dev nD) (t : Fin cfg0.N) : EReal :=
  blockLoss (iblk m c 0 t : Vec Ideal S16000x5 .f32) (iblk m c 1 t : Vec Ideal S16000x1 .f32)

/-- It is the sum of the losses of rows `16000 t` to `16000 t + 15999` of the arguments. -/
theorem pointLoss_eq (c : Dev nD) (t : Fin cfg0.N) :
    pointLoss m c t = ∑ r ∈ Finset.range 16000, lossAt (rows m c) (targets m c) (16000 * t.val + r) :=
  block_loss m c t

/-- After the first point the accumulator holds zero plus that point's partial sum. -/
theorem acc_first (c : Dev nD) (t : Fin cfg0.N) (h0 : t.val % 1250 = 0) (h1 : ¬t.val % 1250 = 1249) (y : S1x1.Idx) :
    (outsAt0 m c t.val t.isLt).2 y = 0 + pointLoss m c t := by
  rw [outsAt0_A m c t h0 h1]
  dsimp only
  refine (congrFun (Pieces.scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) y).trans ?_
  refine (Payloads.accumulate_apply (iblk m c 0 t) (iblk m c 1 t) (k0_pay1 (F := Ideal)) y).trans ?_
  exact congrArg (· + pointLoss m c t) (Payloads.reset_apply y)

/-- After a middle point it holds what the point before left plus that point's partial sum. -/
theorem acc_middle (c : Dev nD) (t : Fin cfg0.N) (h0 : ¬t.val % 1250 = 0) (h1 : ¬t.val % 1250 = 1249) (y : S1x1.Idx) :
    (outsAt0 m c t.val t.isLt).2 y
      = (outsAt0 m c (t.val - 1) (Nat.lt_of_le_of_lt (Nat.sub_le _ _) t.isLt)).2 y + pointLoss m c t := by
  rw [outsAt0_B m c t h0 h1]
  dsimp only
  refine (congrFun (Pieces.scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) y).trans ?_
  exact Payloads.accumulate_apply (iblk m c 0 t) (iblk m c 1 t) (outsAt0 m c (t.val - 1) (Nat.lt_of_le_of_lt (Nat.sub_le _ _) t.isLt)).2 y

/-- After the last point likewise, -/
theorem acc_last (c : Dev nD) (t : Fin cfg0.N) (h0 : ¬t.val % 1250 = 0) (h1 : t.val % 1250 = 1249) (y : S1x1.Idx) :
    (outsAt0 m c t.val t.isLt).2 y
      = (outsAt0 m c (t.val - 1) (Nat.lt_of_le_of_lt (Nat.sub_le _ _) t.isLt)).2 y + pointLoss m c t := by
  rw [outsAt0_C m c t h0 h1]
  dsimp only
  refine (congrFun (Pieces.scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) y).trans ?_
  exact Payloads.accumulate_apply (iblk m c 0 t) (iblk m c 1 t) (outsAt0 m c (t.val - 1) (Nat.lt_of_le_of_lt (Nat.sub_le _ _) t.isLt)).2 y

/-- and the output block holds that accumulator divided by the number of rows. -/
theorem out_last (c : Dev nD) (t : Fin cfg0.N) (h0 : ¬t.val % 1250 = 0) (h1 : t.val % 1250 = 1249) (y : S1x1.Idx) :
    (outsAt0 m c t.val t.isLt).1 y
      = Ideal.div ((outsAt0 m c (t.val - 1) (Nat.lt_of_le_of_lt (Nat.sub_le _ _) t.isLt)).2 y + pointLoss m c t)
          (Ideal.ofBits .f32 0x4B989680#32) := by
  rw [outsAt0_C m c t h0 h1]
  dsimp only
  refine (congrFun (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) y).trans ?_
  refine (Payloads.divide_apply _ y).trans ?_
  exact congrArg (fun z => Ideal.div z (Ideal.ofBits .f32 0x4B989680#32))
    (Payloads.accumulate_apply (iblk m c 0 t) (iblk m c 1 t) (outsAt0 m c (t.val - 1) (Nat.lt_of_le_of_lt (Nat.sub_le _ _) t.isLt)).2 y)

/-- THE RUNNING SUM: after point `n` the accumulator holds the sum of the losses of the first `16000 (n + 1)` rows —
    by induction on the point, never by enumerating the grid. -/
theorem acc_eq (c : Dev nD) : ∀ (n : ℕ) (h : n < cfg0.N) (y : S1x1.Idx),
    (outsAt0 m c n h).2 y = lossUpTo (rows m c) (targets m c) (16000 * (n + 1))
  | 0, h, y => by
    refine (acc_first m c ⟨0, h⟩ rfl (by dsimp only; omega) y).trans ?_
    rw [pointLoss_eq, zero_add, lossUpTo_succ_block, lossUpTo_zero, zero_add]
  | n + 1, h, y => by
    have hN : n + 1 < 1250 := lt_of_lt_of_eq h (show cfg0.N = 1250 from N_0)
    have h0 : ¬(⟨n + 1, h⟩ : Fin cfg0.N).val % 1250 = 0 := by dsimp only; omega
    by_cases h1 : (⟨n + 1, h⟩ : Fin cfg0.N).val % 1250 = 1249
    · refine (acc_last m c ⟨n + 1, h⟩ h0 h1 y).trans ?_
      show (outsAt0 m c n _).2 y + _ = _
      rw [acc_eq c n, pointLoss_eq]
      exact (lossUpTo_succ_block (rows m c) (targets m c) (n + 1)).symm
    · refine (acc_middle m c ⟨n + 1, h⟩ h0 h1 y).trans ?_
      show (outsAt0 m c n _).2 y + _ = _
      rw [acc_eq c n, pointLoss_eq]
      exact (lossUpTo_succ_block (rows m c) (targets m c) (n + 1)).symm

/-- The last point. -/
def lastPoint : Fin cfg0.N := ⟨1249, by rw [show cfg0.N = 1250 from N_0]; decide⟩

/-- THE RESULT: after the last point the output block holds the mean loss of the arguments. -/
theorem out_eq (c : Dev nD) (y : S1x1.Idx) :
    (outsAt0 m c lastPoint.val lastPoint.isLt).1 y = meanLoss (rows m c) (targets m c) := by
  refine (out_last m c lastPoint (by decide) (by decide) y).trans ?_
  unfold meanLoss
  refine congrArg (fun z => Ideal.div z (Ideal.ofBits .f32 0x4B989680#32)) ?_
  rw [acc_eq m c (lastPoint.val - 1), pointLoss_eq]
  exact (lossUpTo_succ_block (rows m c) (targets m c) 1249).symm.trans
    (congrArg (lossUpTo (rows m c) (targets m c)) (by norm_num))

end Cert.KernelIdeal.Accumulate

end
-- ==== Proof.Result.lean ====
/-
  From the output block to the program's result. The output window's block never moves and is the whole one-entry
  array; the pipeline writes it back once, after the last grid point, when it holds the mean loss. So the array ends
  holding the mean loss, and the reshape after the region, from one row and one column to a scalar, hands the same
  number on as the program's result; the arguments are left as they were.
-/
import proofs.«179206_j28827820491183_2_alg».proof.Proof.Accumulate
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.RowLoss Cert.KernelIdeal.Blocks Cert.KernelIdeal.Accumulate

variable (m : (ℓ : Loc nD τ sig) → Buf (Elt Ideal) ℓ) (ρ : Dev nD → PrngReg)

/-- The one-entry array at the mean loss of the arguments. -/
abbrev meanBlock (c : Dev nD) : Buf (Elt Ideal) ((c : Thread nD τ).loc main_v0) :=
  fun _ => meanLoss (rows m c) (targets m c)

/-- The program's result at the mean loss of the arguments. -/
abbrev meanScalar (c : Dev nD) : Buf (Elt Ideal) ((c : Thread nD τ).loc main_v1) :=
  fun _ => meanLoss (rows m c) (targets m c)

/-- The output window's block sits at the origin at every point and is one row by one column. -/
theorem out_block : ∀ t : Fin cfg0.N,
    win0_2.index t (0 : Fin 2) * win0_2.size (0 : Fin 2) = 0 ∧ win0_2.xsize (grid0.coords t) (0 : Fin 2) = 1
    ∧ win0_2.index t (1 : Fin 2) * win0_2.size (1 : Fin 2) = 0 ∧ win0_2.xsize (grid0.coords t) (1 : Fin 2) = 1 :=
  (by decide +kernel : ∀ t : Fin grid0.N,
    win0_2.index t (0 : Fin 2) * win0_2.size (0 : Fin 2) = 0 ∧ win0_2.xsize (grid0.coords t) (0 : Fin 2) = 1
    ∧ win0_2.index t (1 : Fin 2) * win0_2.size (1 : Fin 2) = 0 ∧ win0_2.xsize (grid0.coords t) (1 : Fin 2) = 1)

/-- The one write-back, after the last point, writes the mean loss: the block at the origin of the one-entry
    array, read through zero offsets, is the array. -/
theorem flushed_eq (c : Dev nD) (t : Fin cfg0.N) (hf : (cfg0.win 2).flush t = true) :
    (dats m 0 c).flushed 2 t = ((cfg0.win 2).blk t).view.read (Elt Ideal) (meanBlock m c) := by
  have h3 : t.val = 1249 := by have := (flush0_2 t).mp hf; have := point_lt t; omega
  obtain rfl : t = lastPoint := Fin.ext h3
  show (cfg0.win 2).cut (grid0.coords lastPoint) ((dats m 0 c).after 2 lastPoint) = _
  rw [after0_2]
  have e : (outsAt0 m c lastPoint.val lastPoint.isLt).1 = meanBlock m c := funext fun y => out_eq m c y
  rw [e]
  have hz' : (fun a => win0_2.index lastPoint a * main_v0.ty.shape.size a) = fun _ => 0 := funext fun a => by
    match a with
    | ⟨0, _⟩ => exact (out_block lastPoint).1
    | ⟨1, _⟩ => exact (out_block lastPoint).2.2.1
  exact (Memref.read_access_unit_zero (Elt Ideal) main_v0 hz' (fun a => by rw [congrFun hz' a]; simp) (meanBlock m c)).symm

/-- So the output array ends holding the mean loss: the last point's block covers it. -/
theorem final_out (c : Dev nD) : (dats m 0 c).arrAt 2 cfg0.N = meanBlock m c :=
  (dats m 0 c).arrAt_eq_of_cover 2 (meanBlock m c) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [(out_block lastPoint).1, (out_block lastPoint).2.1]; omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [(out_block lastPoint).2.2.1, (out_block lastPoint).2.2.2]; omega⟩

/-- The reshape after the region reads that array: the program's result is the mean loss. -/
theorem tail_eq (c : Dev nD) :
    Pipeline.afterTail₀ cfgs (dats m) 0 (V0 m) [hostOps1] c main_v1 = meanScalar m c := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = meanBlock m c :=
    (Pipeline.withArrays_arr spec0 launch0.win.arr_inj c _ _ 2).trans (final_out m c)
  rw [e]
  rfl

/-- THE RUN, READ: at the compiled mesh, from any memory with zero counters, every weakly fair execution of the
    program terminates with its result at the mean loss of the arguments and the arguments unchanged. -/
theorem run : θ_run defs (onTc (τ := τ) (main (F := Ideal))) ⟨m, fun _ => 0, ρ⟩ fun r => ∀ c : Dev nD,
      r.2.mem ((c.tc : Thread nD τ).loc main_v1) = meanScalar m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.LibSumIdx1.lean ====
/-
  A sum over the indices of a rank-1 array is the sum over its one coordinate.
-/
import Idealize.ShloMosaic.Lib.ValueIdx

noncomputable section

open scoped BigOperators

namespace Idealize.ShloMosaic.ValueIdx

open Idealize.ShloMosaic

/-- The indices of an array of shape `[n]` are its coordinates `0 … n - 1`. -/
def idxEquiv1 {n : Nat} : (⟨1, ![n]⟩ : Shape).Idx ≃ Fin n where
  toFun j := j 0
  invFun a := ix1 a
  left_inv j := (eq_ix1 j).symm
  right_inv _ := rfl

/-- A sum over the indices of an array of shape `[n]` is the sum over the coordinate (the rank-1 companion of
    `sum_idx2`): the form in which a host reduction of a whole vector meets a sum written over `Fin n`. -/
theorem sum_idx1 {M : Type*} [AddCommMonoid M] {n : Nat} (f : (⟨1, ![n]⟩ : Shape).Idx → M) :
    ∑ j, f j = ∑ a : Fin n, f (ix1 a) :=
  (Equiv.sum_comp idxEquiv1.symm f).symm

end Idealize.ShloMosaic.ValueIdx

end
-- ==== Proof.RefMean.lean ====
/-
  The reference computes the mean loss: it slices columns 0, 2 and 4 out of the rows and flattens them, forms each
  row's loss entry by entry, sums all 20,000,000 of them from zero and divides by the number of rows. Read at row
  `i`, every flattened column is the array at `(i, column)`, so the summand is the loss of row `i`.
-/
import proofs.«179206_j28827820491183_2_alg».proof.Proof.Gen.ReferenceIdeal.Read
import proofs.«179206_j28827820491183_2_alg».proof.Proof.RowLoss
import proofs.«179206_j28827820491183_2_alg».proof.Proof.LibSumIdx1

noncomputable section

open scoped BigOperators
open Idealize.ShloMosaic Idealize.ShloMosaic.ValueIdx

namespace Cert.ReferenceIdeal.RefValue

open Cert.ReferenceIdeal Cert.ReferenceIdeal.Read Cert.RowLoss

/-- Flattening a one-column slice and reading it at `i` reads the slice at `(i, 0)`; -/
theorem flat_at (i : Fin 20000000) : idx_main_v1 (ix1 i) = ix2 i (0 : Fin 1) :=
  funext fun a => Fin.ext (by
    match a with
    | ⟨0, _⟩ => exact Nat.div_one _
    | ⟨1, _⟩ => rfl)

/-- and the slice of column 4 at `(i, 0)` reads the rows at `(i, 4)`, -/
theorem col4_at (i : Fin 20000000) : idx_main_v0 (ix2 i (0 : Fin 1)) = ix2 i (4 : Fin 5) :=
  funext fun a => Fin.ext (by
    match a with
    | ⟨0, _⟩ => rfl
    | ⟨1, _⟩ => rfl)

/-- of column 2 at `(i, 2)`, -/
theorem col2_at (i : Fin 20000000) : idx_main_v2 (ix2 i (0 : Fin 1)) = ix2 i (2 : Fin 5) :=
  funext fun a => Fin.ext (by
    match a with
    | ⟨0, _⟩ => rfl
    | ⟨1, _⟩ => rfl)

/-- of column 0 at `(i, 0)`. -/
theorem col0_at (i : Fin 20000000) : idx_main_v8 (ix2 i (0 : Fin 1)) = ix2 i (0 : Fin 5) :=
  funext fun a => Fin.ext (by
    match a with
    | ⟨0, _⟩ => rfl
    | ⟨1, _⟩ => rfl)

/-- The summand of the reference's sum at row `i` is the loss of row `i`. -/
theorem summand_at (x0 : Rows) (x1 : Targets) (i : Fin 20000000) :
    val_main_v18 (F := Ideal) x0 x1 (ix1 i) = lossAt x0 x1 i.val := by
  unfold lossAt
  rw [dif_pos i.isLt]
  rw [val_main_v18_apply, val_main_v17_apply, val_main_v7_apply, val_main_v5_apply, val_main_v4_apply,
    val_main_v1_apply, val_main_v0_apply, val_main_v3_apply, val_main_v2_apply, val_main_v6_apply, val_main_cst_apply,
    val_main_v12_apply, val_main_v9_apply, val_main_v8_apply, val_main_v11_apply, val_main_v10_apply,
    val_main_v16_apply, val_main_v14_apply, val_main_v13_apply, val_main_v15_apply]
  show FloatOps.hostAbsf (Scalar.select (FloatOps.cmpf .olt (FloatOps.hostAbsf (FloatOps.subf
      (x0 (idx_main_v0 (idx_main_v1 (ix1 i)))) (x0 (idx_main_v2 (idx_main_v1 (ix1 i))))))
        (FloatOps.ofBits .f32 0x3DCCCCCD#32))
      (FloatOps.subf (x0 (idx_main_v8 (idx_main_v1 (ix1 i)))) (x0 (idx_main_v0 (idx_main_v1 (ix1 i)))))
      (FloatOps.subf (x0 (idx_main_v8 (idx_main_v1 (ix1 i)))) (x1 (idx_main_v1 (ix1 i))))) = _
  rw [flat_at, col4_at, col2_at, col0_at]
  rfl

/-- The reference's result is the mean loss of its arguments. -/
theorem reference_eq (x0 : Rows) (x1 : Targets) :
    val_main_v20 (F := Ideal) x0 x1 = fun _ => meanLoss x0 x1 := by
  funext j
  rw [val_main_v20_apply, val_main_v19_apply, val_main_cst_1_apply, val_main_cst_0_apply]
  show Ideal.div (Ideal.ofBits .f32 0x00000000#32 + ∑ k : S20000000.Idx, val_main_v18 (F := Ideal) x0 x1 k)
    (Ideal.ofBits .f32 0x4B989680#32) = _
  rw [Ideal.ofBits_zero_f32, zero_add, sum_idx1]
  unfold meanLoss lossUpTo
  rw [Finset.sum_range]
  refine congrArg (fun z => Ideal.div z (Ideal.ofBits .f32 0x4B989680#32)) ?_
  refine Finset.sum_congr rfl fun i _ => ?_
  exact summand_at x0 x1 i

end Cert.ReferenceIdeal.RefValue

end
-- ==== Proof.lean ====
/-
  The mean absolute loss over 20,000,000 rows, computed two ways, is one extended real.

  Each row has five entries and a target. Its loss is the distance from entry 0 to entry 4 where entries 4 and 2 are
  closer than the tolerance (the f32 nearest to 0.1), and the distance from entry 0 to the target otherwise. The
  reference slices the three columns out, forms every row's loss, sums all of them from zero and divides by
  20000000.0. The kernel walks the rows in 1,250 blocks of 16,000: at each grid point it sums the block's losses and
  adds the partial sum to a one-entry accumulator that it zeroes at the first point; after the last point it stores
  the accumulator divided by 20000000.0, and the program reshapes that one entry to a scalar.

  On the extended reals both are the sum of the same 20,000,000 terms divided by the same number: the row losses are
  the same entries through the same operations and the same literals, and the kernel's grouping of the sum — block
  by block, each block added to the running total — is a re-association of the reference's, which holds for every
  extended real because their addition is a commutative monoid. No entry needs to be finite for it.

  The three programs' frames are the generated ones (the reference's is its generated run with the result dropped),
  and the idealization rewrote nothing, so that conjunct is `True`.
-/
import proofs.«179206_j28827820491183_2_alg».proof.Defs
import proofs.«179206_j28827820491183_2_alg».proof.Proof.Gen.Kernel
import proofs.«179206_j28827820491183_2_alg».proof.Proof.Gen.Kernel.Skeleton
import proofs.«179206_j28827820491183_2_alg».proof.Proof.Gen.Kernel.Launch
import proofs.«179206_j28827820491183_2_alg».proof.Proof.Gen.Kernel.Points
import proofs.«179206_j28827820491183_2_alg».proof.Proof.Gen.Kernel.Frame
import proofs.«179206_j28827820491183_2_alg».proof.Proof.Gen.KernelIdeal
import proofs.«179206_j28827820491183_2_alg».proof.Proof.Gen.KernelIdeal.Skeleton
import proofs.«179206_j28827820491183_2_alg».proof.Proof.Gen.KernelIdeal.Launch
import proofs.«179206_j28827820491183_2_alg».proof.Proof.Gen.KernelIdeal.Points
import proofs.«179206_j28827820491183_2_alg».proof.Proof.Gen.KernelIdeal.Frame
import proofs.«179206_j28827820491183_2_alg».proof.Proof.Gen.ReferenceIdeal
import proofs.«179206_j28827820491183_2_alg».proof.Proof.Gen.ReferenceIdeal.Run
import proofs.«179206_j28827820491183_2_alg».proof.Proof.Gen.ReferenceIdeal.Read
import proofs.«179206_j28827820491183_2_alg».proof.Proof.Gen.Pre_finite_inputs
import proofs.«179206_j28827820491183_2_alg».proof.Proof.Result
import proofs.«179206_j28827820491183_2_alg».proof.Proof.RefMean
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result dropped, is its frame. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- On the extended reals the kernel's result ends at the mean loss of its arguments and the reference's at the mean
    loss of arguments that agree with them: one number. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Result.meanScalar m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.reference_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
